-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S16x4096 : Shape := ⟨2, ![16, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S4x4096x4096 .f32) (main_arg1 : FVec F S4x4096x4096 .f32) (main_arg2 : FVec F S16x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  main_v13
-- ==== Kernel.lean ====
abbrev S4x4096x4096 : Shape := ⟨3, ![4, 4096, 4096]⟩
abbrev S16x4096 : Shape := ⟨2, ![16, 4096]⟩
abbrev S_ : Shape := ⟨0, ![]⟩
abbrev S16 : Shape := ⟨1, ![16]⟩
abbrev S16x1 : Shape := ⟨2, ![16, 1]⟩
abbrev S1x512x4096 : Shape := ⟨3, ![1, 512, 4096]⟩
abbrev S1x128x4096 : Shape := ⟨3, ![1, 128, 4096]⟩
abbrev S128x4096 : Shape := ⟨2, ![128, 4096]⟩
abbrev S128x16 : Shape := ⟨2, ![128, 16]⟩
abbrev S128 : Shape := ⟨1, ![128]⟩
abbrev S128x1 : Shape := ⟨2, ![128, 1]⟩

abbrev nBuf : Space → Nat
  | .hbm => 15
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S16x4096, .f32⟩
  | .hbm, ⟨3, _⟩ => ⟨S16x4096, .f32⟩
  | .hbm, ⟨4, _⟩ => ⟨S_, .f32⟩
  | .hbm, ⟨5, _⟩ => ⟨S16, .f32⟩
  | .hbm, ⟨6, _⟩ => ⟨S16x1, .f32⟩
  | .hbm, ⟨7, _⟩ => ⟨S16x1, .f32⟩
  | .hbm, ⟨8, _⟩ => ⟨S_, .f32⟩
  | .hbm, ⟨9, _⟩ => ⟨S16x1, .f32⟩
  | .hbm, ⟨10, _⟩ => ⟨S16x1, .f32⟩
  | .hbm, ⟨11, _⟩ => ⟨S16x4096, .f32⟩
  | .hbm, ⟨12, _⟩ => ⟨S16x4096, .f32⟩
  | .hbm, ⟨13, _⟩ => ⟨S16x4096, .bf16⟩
  | .hbm, ⟨14, _⟩ => ⟨S4x4096x4096, .f32⟩
  | .local _ .vmem, ⟨0, _⟩ => ⟨S1x512x4096, .f32⟩
  | .local _ .vmem, ⟨1, _⟩ => ⟨S1x512x4096, .f32⟩
  | .local _ .vmem, ⟨2, _⟩ => ⟨S16x4096, .bf16⟩
  | .local _ .vmem, ⟨3, _⟩ => ⟨S1x512x4096, .f32⟩
  | .local _ .vmem, ⟨4, _⟩ => ⟨S1x512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c128_i32 : BitVec 32 := 128#32
  let v3 : BitVec 32 := Scalar.muli arg4 c128_i32
  v3
def k0_off1 (k0_t1 : Fin k0_t1_loop.trips) : Fin 3 → Nat :=
  let c0_2 : Index := 0#32
  let c0_i32 : BitVec 32 := 0#32
  let c1_i32 : BitVec 32 := 1#32
  let arg4 : BitVec 32 := Scf.iv c0_i32 c1_i32 k0_t1
  let c128_i32 : BitVec 32 := 128#32
  let v3 : BitVec 32 := Scalar.muli arg4 c128_i32
  let v4 : BitVec 32 := v3
  let v5 : Index := Scalar.indexCast v4
  let c0_3 : Index := 0#32
  ![0, v5.toNat, 0]
def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S16x4096_S16_d1 : S16x4096.ReducesTo [1] S16
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x4096_0_1 : S16x1.BroadcastsInDim S16x4096 (![0, 1] : Fin 2 → Fin S16x4096.rank)
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  h_S1x128x4096 : 0 < S1x128x4096.numel
  shapeCasts_S1x128x4096_S128x4096 : S1x128x4096.ShapeCasts S128x4096
  reduces_S128x16_S128 : S128x16.Reduces [1] S128
  shapeCasts_S128_S128x1 : S128.ShapeCasts S128x1
  broadcasts_S128x1_S128x16 : S128x1.Broadcasts S128x16
  shapeCasts_S128x4096_S1x128x4096 : S128x4096.ShapeCasts S1x128x4096
  dot_S128x4096_S16x4096_S128x16_1_1_0_0_n_n_wf : DotDims.WF S128x4096 S16x4096 S128x16 [1] [1] [0] [0] [] []
  dot_S128x16_S16x4096_S128x4096_1_0_0_1_n_n_wf : DotDims.WF S128x16 S16x4096 S128x4096 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x128x4096.size a ≤ S1x512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S4x4096x4096.size a
  hwx0_0 : ∀ i : grid0.Coords, EltTy.bits .f32 = 32 ∨ (Rect.block (s := S4x4096x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .bf16 = 32 ∨ (Rect.block (s := S16x4096) S16x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S4x4096x4096.size a
  hwx0_2 : ∀ i : grid0.Coords, EltTy.bits .f32 = 32 ∨ (Rect.block (s := S4x4096x4096) S1x512x4096.size (cc0_transform_2 i) (hinb0_2 i)).WholeWords (EltTy.packing .f32)

variable [Facts₀]

def dot_S128x4096_S16x4096_S128x16_1_1_0_0_n_n : DotDims S128x4096 S16x4096 S128x16 where
  lhsContracting := [1]
  rhsContracting := [1]
  lhsNonContracting := [0]
  rhsNonContracting := [0]
  lhsBatch := []
  rhsBatch := []
  wf := dot_S128x4096_S16x4096_S128x16_1_1_0_0_n_n_wf
def dot_S128x16_S16x4096_S128x4096_1_0_0_1_n_n : DotDims S128x16 S16x4096 S128x4096 where
  lhsContracting := [1]
  rhsContracting := [0]
  lhsNonContracting := [0]
  rhsNonContracting := [1]
  lhsBatch := []
  rhsBatch := []
  wf := dot_S128x16_S16x4096_S128x4096_1_0_0_1_n_n_wf

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S16x4096 : Shape := ⟨2, ![16, 4096]⟩
abbrev S_ : Shape := ⟨0, ![]⟩
abbrev S16 : Shape := ⟨1, ![16]⟩
abbrev S16x1 : Shape := ⟨2, ![16, 1]⟩
abbrev S4x4096x16 : Shape := ⟨3, ![4, 4096, 16]⟩
abbrev S4x4096 : Shape := ⟨2, ![4, 4096]⟩
abbrev S4x4096x1 : Shape := ⟨3, ![4, 4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S16x4096, .f32⟩
  | .hbm, ⟨3, _⟩ => ⟨S16x4096, .f32⟩
  | .hbm, ⟨4, _⟩ => ⟨S_, .f32⟩
  | .hbm, ⟨5, _⟩ => ⟨S16, .f32⟩
  | .hbm, ⟨6, _⟩ => ⟨S16x1, .f32⟩
  | .hbm, ⟨7, _⟩ => ⟨S16x1, .f32⟩
  | .hbm, ⟨8, _⟩ => ⟨S_, .f32⟩
  | .hbm, ⟨9, _⟩ => ⟨S16x1, .f32⟩
  | .hbm, ⟨10, _⟩ => ⟨S16x1, .f32⟩
  | .hbm, ⟨11, _⟩ => ⟨S16x4096, .f32⟩
  | .hbm, ⟨12, _⟩ => ⟨S16x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4x4096x16, .f32⟩
  | .hbm, ⟨18, _⟩ => ⟨S4x4096x16, .f32⟩
  | .hbm, ⟨19, _⟩ => ⟨S4x4096x16, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S4x4096x1, .f32⟩
  | .hbm, ⟨26, _⟩ => ⟨S4x4096x16, .f32⟩
  | .hbm, ⟨27, _⟩ => ⟨S4x4096x16, .f32⟩
  | .hbm, ⟨28, _⟩ => ⟨S4x4096x16, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S4x4096x16, .f32⟩
  | .hbm, ⟨33, _⟩ => ⟨S4x4096x16, .f32⟩
  | .hbm, ⟨34, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  reducesTo_S16x4096_S16_d1 : S16x4096.ReducesTo [1] S16
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x4096_0_1 : S16x1.BroadcastsInDim S16x4096 (![0, 1] : Fin 2 → Fin S16x4096.rank)
  bcast_S_S4x4096x16 : S_.BroadcastsInDim S4x4096x16 (![] : Fin 0 → Fin S4x4096x16.rank)
  reducesTo_S4x4096x16_S4x4096_d2 : S4x4096x16.ReducesTo [2] S4x4096
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x16_0_1_2 : S4x4096x1.BroadcastsInDim S4x4096x16 (![0, 1, 2] : Fin 3 → Fin S4x4096x16.rank)
  dot_S4x4096x4096_S16x4096_S4x4096x16_2_1_01_0_n_n_wf : DotDims.WF S4x4096x4096 S16x4096 S4x4096x16 [2] [1] [0, 1] [0] [] []
  dot_S4x4096x16_S16x4096_S4x4096x4096_2_0_01_1_n_n_wf : DotDims.WF S4x4096x16 S16x4096 S4x4096x4096 [2] [0] [0, 1] [1] [] []

variable [Facts₀]

def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S16x4096_S4x4096x4096_2_0_01_1_n_n : DotDims S4x4096x16 S16x4096 S4x4096x4096 where
  lhsContracting := [2]
  rhsContracting := [0]
  lhsNonContracting := [0, 1]
  rhsNonContracting := [1]
  lhsBatch := []
  rhsBatch := []
  wf := dot_S4x4096x16_S16x4096_S4x4096x4096_2_0_01_1_n_n_wf

class Facts : Prop extends Facts₀ where

variable [Facts]
-- ==== Proof.RowLaws.lean ====
/-
  The function of one row that both programs compute, on the extended reals, and the one arithmetic fact that joins
  their two spellings of the scale.

  For a row `x` of length 4096 and sixteen unit-direction rows `pv n`, the logits are `l n = (∑ k, x k · pv n k) · s`,
  the weights `w n = exp (l n - max(-∞, maxₙ l n))`, the gates `w n / ∑ₙ w n`, and the result at column `d` is
  `∑ n, gate n · pv n d`.  One program writes the scale `s` as the literal `1/64`, the other as `1 / √4096`; since
  `4096 = 64²` they are the same extended real.
-/
import Idealize.ShloMosaic.PureOps.Ideal
import Idealize.ShloMosaic.PureOps.Ideal.Laws

noncomputable section

namespace Cert.RowLaws

open Idealize.ShloMosaic

/-- The pattern of `4096.0` denotes the real `4096`. -/
theorem ofBits_4096 : Ideal.ofBits .f32 0x45800000#32 = ((4096 : ℝ) : EReal) := by
  simp [Ideal.ofBits, Ideal.ieee, -EReal.coe_mul]; norm_num

/-- The pattern of `1.0` denotes `1`. -/
theorem ofBits_one : Ideal.ofBits .f32 0x3F800000#32 = 1 := by
  simp [Ideal.ofBits, Ideal.ieee, -EReal.coe_mul]; norm_num

/-- The pattern of `0.015625` denotes the real `1/64`. -/
theorem ofBits_64th : Ideal.ofBits .f32 0x3C800000#32 = ((1 / 64 : ℝ) : EReal) := by
  simp [Ideal.ofBits, Ideal.ieee, -EReal.coe_mul]; norm_num

/-- `√4096 = 64`, because `4096 = 64²`. -/
theorem sqrt_4096 : Real.sqrt 4096 = 64 := by
  rw [show (4096 : ℝ) = 64 ^ 2 by norm_num]
  exact Real.sqrt_sq (by norm_num)

/-- `1 / √4096` is the literal `1/64`: the two spellings of the scale are one extended real. -/
theorem scale_eq :
    Ideal.div (Ideal.ofBits .f32 0x3F800000#32) (Ideal.sqrt (Ideal.ofBits .f32 0x45800000#32))
      = Ideal.ofBits .f32 0x3C800000#32 := by
  rw [ofBits_4096, ofBits_one, ofBits_64th, Ideal.sqrt_coe, if_neg (by norm_num), sqrt_4096,
    Ideal.div_coe (by norm_num : (64 : ℝ) ≠ 0), one_mul]

/-- The pattern of `-∞`, from which both programs start a row's maximum. -/
abbrev negInf : EReal := Ideal.ofBits .f32 0xFF800000#32

/-- The logits of a row `x` against the rows `pv n`, scaled by `s`. -/
def logit (s : EReal) (pv : Fin 16 → Fin 4096 → EReal) (x : Fin 4096 → EReal) (n : Fin 16) : EReal :=
  (∑ k : Fin 4096, x k * pv n k) * s

/-- The maximum of sixteen logits, started from `-∞` and met with `-∞` once more (as both programs do). -/
def rowMax (l : Fin 16 → EReal) : EReal :=
  max negInf ((Finset.univ : Finset (Fin 16)).fold max negInf l)

/-- The weight of position `n`: the exponential of the logit's distance below the maximum. -/
def weight (l : Fin 16 → EReal) (n : Fin 16) : EReal := Ideal.exp (l n - rowMax l)

/-- The gate of position `n`: its weight over the sum of the sixteen weights. -/
def gate (l : Fin 16 → EReal) (n : Fin 16) : EReal := Ideal.div (weight l n) (∑ k : Fin 16, weight l k)

/-- The result at column `d`: the gates' combination of the sixteen rows `pv n` there. -/
def mixRow (s : EReal) (pv : Fin 16 → Fin 4096 → EReal) (x : Fin 4096 → EReal) (d : Fin 4096) : EReal :=
  ∑ n : Fin 16, gate (logit s pv x) n * pv n d

end Cert.RowLaws

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.KernelRow.lean ====
import proofs.«162622_j17265768530810_2_alg».proof.Proof.Gen.KernelIdeal.Skeleton
import proofs.«162622_j17265768530810_2_alg».proof.Proof.RowLaws
import proofs.«162622_j17265768530810_2_alg».proof.Proof.LibBroadcast
import proofs.«162622_j17265768530810_2_alg».proof.Proof.LibRowsProduct
import proofs.«162622_j17265768530810_2_alg».proof.Proof.LibPlainProduct
import Idealize.ShloMosaic.Lib.Pipeline.Value
import Idealize.ShloMosaic.Lib.ValueLayout
import Idealize.ShloMosaic.Lib.ValueIdx
import Idealize.ShloMosaic.PureOps.Ideal.Laws

noncomputable section

/-!
  One chunk of the kernel's body, read at an index.

  The body takes 128 rows of `q` at a time.  Row `p` of the chunk meets the sixteen rows of `pv` in a product that contracts
  the long axis (the logits), is scaled, turned into gates by a softmax over the sixteen positions, and the gates combine
  the sixteen rows of `pv` again: entry `(p, d)` of the chunk's result is `mixRow` of row `p` at column `d`.
-/

namespace Cert.KernelIdeal.Row

open Cert.KernelIdeal Cert.KernelIdeal.Gen Idealize.ShloMosaic Idealize.ShloMosaic.ValueIdx Cert.RowLaws

/-- Putting position `k` back into row `p` of a `[128]` index gives `(p, k)`. -/
theorem lift_row (hr : S128x16.Reduces [1] S128) (p : Fin 128) (k : Fin (S128x16.size 1)) :
    hr.lift (ix1 p) k = ix2 p (⟨k.val, k.isLt⟩ : Fin 16) := by
  funext c; apply Fin.ext
  fin_cases c <;> rfl

/-- The maximum over the sixteen positions of row `p`, started from `-∞`. -/
theorem rowmax_apply (L : FVec Ideal S128x16 .f32) (hr : S128x16.Reduces [1] S128) (hφ : FKind.Formats .f32)
    (hacc : (0xFF800000#32 : BitVec 32) = FKind.maximumf.neutral .f32 hφ) (p : Fin 128) :
    multiReduction .maximumf [1] S128 L 0xFF800000#32 hr hφ hacc (ix1 p)
      = (Finset.univ : Finset (Fin 16)).fold max negInf (fun n => L (ix2 p n)) := by
  rw [Ideal.multiReduction_maximumf_single]
  have e : (L ∘ hr.lift (ix1 p)) = fun n : Fin 16 => L (ix2 p n) := funext fun k => congrArg L (lift_row hr p k)
  rw [e]; rfl

/-- The sum over the sixteen positions of row `p`. -/
theorem rowsum_apply (E : FVec Ideal S128x16 .f32) (hr : S128x16.Reduces [1] S128) (hφ : FKind.Formats .f32)
    (hacc : (0x00000000#32 : BitVec 32) = FKind.add.neutral .f32 hφ) (p : Fin 128) :
    multiReduction .add [1] S128 E 0x00000000#32 hr hφ hacc (ix1 p) = ∑ n : Fin 16, E (ix2 p n) := by
  rw [Ideal.multiReduction_add_single]
  exact Finset.sum_congr rfl fun k _ => congrArg E (lift_row hr p k)

/-- A value per row, re-laid as a column and spread over the sixteen positions, is at `(p, n)` the value of row `p`. -/
theorem spread_apply (v : FVec Ideal S128 .f32) (hc : S128.ShapeCasts S128x1) (hb : S128x1.Broadcasts S128x16)
    (p : Fin 128) (n : Fin 16) :
    broadcastTo S128x16 (shapeCast S128x1 v hc) hb (ix2 p n) = v (ix1 p) := by
  rw [Cert.Layout.broadcastTo_a1_ab_apply, Cert.Layout.shapeCast_col_apply]

/-- The softmax of the rows of `L`, at `(p, n)`: the gate of position `n` among the sixteen logits of row `p`. -/
theorem gate_apply (L : FVec Ideal S128x16 .f32) (hr : S128x16.Reduces [1] S128) (hφ : FKind.Formats .f32)
    (hmax : (0xFF800000#32 : BitVec 32) = FKind.maximumf.neutral .f32 hφ)
    (hadd : (0x00000000#32 : BitVec 32) = FKind.add.neutral .f32 hφ)
    (hc : S128.ShapeCasts S128x1) (hb : S128x1.Broadcasts S128x16) (p : Fin 128) (n : Fin 16) :
    divf
        (exp (subf L (broadcastTo S128x16 (shapeCast S128x1
          (maximumf (broadcast S128 (FloatOps.ofBits .f32 0xFF800000#32))
            (multiReduction .maximumf [1] S128 L 0xFF800000#32 hr hφ hmax)) hc) hb)))
        (broadcastTo S128x16 (shapeCast S128x1
          (multiReduction .add [1] S128
            (exp (subf L (broadcastTo S128x16 (shapeCast S128x1
              (maximumf (broadcast S128 (FloatOps.ofBits .f32 0xFF800000#32))
                (multiReduction .maximumf [1] S128 L 0xFF800000#32 hr hφ hmax)) hc) hb)))
            0x00000000#32 hr hφ hadd) hc) hb)
        (ix2 p n)
      = gate (fun k => L (ix2 p k)) n := by
  have hm : ∀ k : Fin 16, (broadcastTo S128x16 (shapeCast S128x1
          (maximumf (broadcast S128 (FloatOps.ofBits .f32 0xFF800000#32))
            (multiReduction .maximumf [1] S128 L 0xFF800000#32 hr hφ hmax)) hc) hb) (ix2 p k)
        = rowMax (fun k => L (ix2 p k)) := fun k => by
    rw [spread_apply]
    show max (Ideal.ofBits .f32 0xFF800000#32) (multiReduction .maximumf [1] S128 L 0xFF800000#32 hr hφ hmax (ix1 p)) = _
    rw [rowmax_apply]; rfl
  have he : ∀ k : Fin 16, (exp (subf L (broadcastTo S128x16 (shapeCast S128x1
          (maximumf (broadcast S128 (FloatOps.ofBits .f32 0xFF800000#32))
            (multiReduction .maximumf [1] S128 L 0xFF800000#32 hr hφ hmax)) hc) hb))) (ix2 p k)
        = weight (fun k => L (ix2 p k)) k := fun k => by
    show Ideal.exp (L (ix2 p k) - _) = _
    rw [hm k]; rfl
  show Ideal.div _ _ = _
  rw [he n, spread_apply, rowsum_apply]
  unfold gate
  exact congrArg (Ideal.div _) (Finset.sum_congr rfl fun k _ => he k)

/-- Entry `(p, d)` of the chunk's result: `mixRow` of the chunk's row `p` against the rows of the loaded `pv` block,
    with the scale `1/64`. -/
theorem pay_apply (v0 : Vec Ideal S16x4096 .bf16) (v6 : Vec Ideal S1x128x4096 .f32) (u : Fin 1) (p : Fin 128) (d : Fin 4096) :
    k0_pay1 (F := Ideal) v0 v6 (ix3 u p d)
      = mixRow (Ideal.ofBits .f32 0x3C800000#32) (fun n k => v0 (ix2 n k)) (fun k => v6 (ix3 (0 : Fin 1) p k)) d := by
  unfold k0_pay1
  rw [shapeCast_ab_1ab_apply, shapeCast_self]
  refine (Cert.PlainProduct.matmul_nn_apply (φ₂ := .bf16) dot_S128x16_S16x4096_S128x4096_1_0_0_1_n_n_wf none _ v0 p d).trans ?_
  unfold mixRow
  refine Finset.sum_congr rfl fun n _ => congrArg (· * v0 (ix2 n d)) ?_
  refine (gate_apply _ _ _ _ _ _ _ p n).trans ?_
  refine congrArg (fun l => gate l n) (funext fun k => ?_)
  show FloatOps.matmul _ none _ v0 (constant S128x16 .f32 0x00000000#32) (ix2 p k) * Ideal.ofBits .f32 0x3C800000#32 = _
  refine (congrArg (· * Ideal.ofBits .f32 0x3C800000#32)
    (Cert.RowsProduct.matmul_nt_apply (φ₂ := .bf16) dot_S128x4096_S16x4096_S128x16_1_1_0_0_n_n_wf none _ v0 p k)).trans ?_
  unfold logit
  refine congrArg (· * _) (Finset.sum_congr rfl fun c _ => congrArg (· * _) ?_)
  exact shapeCast_1ab_ab_apply v6 _ p c

end Cert.KernelIdeal.Row

end
-- ==== Proof.KernelBlock.lean ====
import proofs.«162622_j17265768530810_2_alg».proof.Proof.Gen.KernelIdeal.Frame
import proofs.«162622_j17265768530810_2_alg».proof.Proof.KernelRow
import Idealize.ShloMosaic.Lib.Pipeline.Value
import Idealize.ShloMosaic.Lib.Tactic

noncomputable section

/-!
  What one grid point leaves in the output's block.

  The body walks its 512-row block in four chunks of 128 rows; chunk `k` stores, at rows `128·k … 128·k + 127`, the
  chunk's result.  Each stored piece is the restriction of ONE function of the block index — row `r`, column `d` gets
  `mixRow` of row `r` of the `q` block at `d` — so the four pieces together, which tile the block, leave that function.
-/

open Idealize.ShloMosaic Idealize.ShloMosaic.TcCoe Idealize.SL.Sem

namespace Cert.KernelIdeal.Block

open Cert.KernelIdeal Cert.KernelIdeal.Gen Idealize.ShloMosaic.ValueIdx Cert.RowLaws

theorem hz2 : (![0, 0] : Fin 2 → Nat) = fun _ => 0 := funext fun a => by fin_cases a <;> rfl

/-- The block as one function of its index `(u, r, d)`: `mixRow` of row `r` of the `q` block `xq` against the rows of
    the `pv` block `xp`, at column `d`. -/
def blockFn (xq : S1x512x4096.Idx → EReal) (xp : S16x4096.Idx → EReal) (y : S1x512x4096.Idx) : EReal :=
  mixRow (Ideal.ofBits .f32 0x3C800000#32) (fun n k => xp (ix2 n k))
    (fun k => xq (ix3 (y 0 : Fin 1) (y 1 : Fin 512) k)) (y 2 : Fin 4096)

theorem mix_congr (s : EReal) (pv : Fin 16 → Fin 4096 → EReal) (f f' : Fin 4096 → EReal) (d d' : Fin 4096)
    (hf : ∀ k, f k = f' k) (hd : d = d') : mixRow s pv f d = mixRow s pv f' d' := by
  rw [show f = f' from funext hf, hd]

variable (𝒱 : Variants) (bd : Option 𝒱.V) (c : Dev nD) (i : grid0.Coords)
  (a1 : Memref sig .tc .vmem S1x512x4096 .f32) (h1 : a1.IsWhole)
  (a2 : Memref sig .tc .vmem S16x4096 .bf16) (h2 : a2.IsWhole)
  (a3 : Memref sig .tc .vmem S1x512x4096 .f32) (h3 : a3.IsWhole)

/-- The piece chunk `k` stores is the block function on its rectangle: its rows are rows `128·k + p` of the block. -/
theorem trip_pieces (V0 : Vec Ideal S16x4096 .bf16) (X : BufTy.Contents (Elt Ideal) a1.view.ty) (k : Fin k0_t1_loop.trips) :
    ∀ p ∈ tripL_k0_t1 (F := Ideal) 𝒱 c bd i a1 h1 a2 h2 a3 h3 V0 X k,
      ∀ x : p.1.shape.Idx, p.2 x = blockFn (a1.view.read (Elt Ideal) X) V0 (p.1.emb x) := by
  unfold tripL_k0_t1 trip_k0_t1
  dsimp only
  intro p hp
  rw [List.mem_singleton] at hp
  subst hp
  intro x
  obtain ⟨u, q, d, rfl⟩ : ∃ (u : Fin 1) (q : Fin 128) (d : Fin 4096), x = ix3 u q d := ⟨x 0, x 1, x 2, eq_ix3 x⟩
  obtain rfl : u = 0 := Subsingleton.elim _ _
  refine (Cert.KernelIdeal.Row.pay_apply V0 _ 0 q d).trans ?_
  unfold blockFn
  refine mix_congr _ _ _ _ _ _ (fun k' => ?_) ?_
  · rw [View.readAt_eq_ld]
    refine congrArg (a1.view.read (Elt Ideal) X) (funext fun a => Fin.ext ?_)
    match a with
    | ⟨0, _⟩ => rfl
    | ⟨1, _⟩ => rfl
    | ⟨2, _⟩ =>
      show (k0_off1 k) 2 + 1 * k'.val = k'.val
      rw [k0_off1_eq k]
      show 0 + 1 * k'.val = k'.val
      omega
  · refine Fin.ext ?_
    show d.val = (k0_off1 k) 2 + 1 * d.val
    rw [k0_off1_eq k]
    show d.val = 0 + 1 * d.val
    omega

/-- So is every piece of the chunks before `n`. -/
theorem pieces_ok (V0 : Vec Ideal S16x4096 .bf16) (X : BufTy.Contents (Elt Ideal) a1.view.ty) :
    ∀ (n : ℕ), ∀ p ∈ pb_k0_t1 (F := Ideal) 𝒱 c bd i a1 h1 a2 h2 a3 h3 V0 X n,
      ∀ x : p.1.shape.Idx, p.2 x = blockFn (a1.view.read (Elt Ideal) X) V0 (p.1.emb x)
  | 0 => fun p hp => by
    rw [pb_k0_t1.eq_1] at hp
    exact absurd hp List.not_mem_nil
  | n + 1 => fun p hp => by
    rw [pb_k0_t1.eq_2] at hp
    unfold pb_k0_t1Step at hp
    split at hp
    · rcases List.mem_append.mp hp with h | h
      · exact trip_pieces 𝒱 bd c i a1 h1 a2 h2 a3 h3 V0 X _ p h
      · exact pieces_ok V0 X n p h
    · exact pieces_ok V0 X n p hp

/-- WHAT THE BODY LEAVES in the output's block, from the `q` block `x0` and the `pv` block `x1`: the block function. -/
theorem block_apply (x0 : Vec Ideal S1x512x4096 .f32) (x1 : Vec Ideal S16x4096 .bf16) :
    out0_A_2 (F := Ideal) c i a1 h1 a2 h2 a3 h3 x0 x1 = blockFn x0 x1 := by
  have hc := cover0_A_2 (F := Ideal) c i a1 h1 a2 h2 a3 h3 x0 x1
  have hP : ∀ p ∈ (kernelRun0_A (F := Ideal) c i a1 h1 a2 h2 a3 h3 x0 x1).1,
      ∀ x : p.1.shape.Idx, p.2 x = blockFn x0 x1 (p.1.emb x) := by
    unfold kernelRun0_A
    dsimp only
    intro p hp x
    have e := pieces_ok Variants.none none c i a1 h1 a2 h2 a3 h3 _ _ _ p hp x
    rw [e, h1.read_unread, View.readAt_eq_ld, h2.read_unread, View.ld_unit_zero hz2]
  unfold out0_A_2
  rw [View.read_writes_eq_canon _ _ _ hc]
  funext y
  exact View.canon_apply_of_pieces (blockFn x0 x1) _ hP y (hc y)

end Cert.KernelIdeal.Block

end
-- ==== Proof.KernelArray.lean ====
import proofs.«162622_j17265768530810_2_alg».proof.Proof.Gen.KernelIdeal.Value
import proofs.«162622_j17265768530810_2_alg».proof.Proof.KernelBlock
import Idealize.ShloMosaic.Lib.Pipeline.Value
import Idealize.ShloMosaic.Lib.Tactic

noncomputable section

/-!
  From the blocks to the whole result array.

  Grid point `t` works on batch `t / 8` and rows `512·(t % 8) … 512·(t % 8) + 511`: it reads that block of `q`, the whole
  of `pv`, and writes the same block of the result.  Every block it writes is the restriction of ONE function of the
  array index — entry `(b, r, d)` is `mixRow` of row `(b, r)` of `q` at `d` — and the 32 blocks tile the array, so the
  array ends holding that function.
-/

open Idealize.ShloMosaic Idealize.ShloMosaic.TcCoe Idealize.SL.Sem
open Idealize.ShloMosaic.Pipeline (Dat)

namespace Cert.KernelIdeal.Array

open Cert.KernelIdeal Cert.KernelIdeal.Gen Idealize.ShloMosaic.ValueIdx Cert.RowLaws Cert.KernelIdeal.Block

variable (m : (ℓ : Loc nD τ sig) → Buf (Elt Ideal) ℓ) (ρ : Dev nD → PrngReg)

/-- The result array as one function of its index `(b, r, d)`: `mixRow` of row `(b, r)` of `xq` against the rows of
    `xp`, at column `d`. -/
def arrFn (xq : S4x4096x4096.Idx → EReal) (xp : S16x4096.Idx → EReal) (i : S4x4096x4096.Idx) : EReal :=
  mixRow (Ideal.ofBits .f32 0x3C800000#32) (fun n k => xp (ix2 n k))
    (fun k => xq (ix3 (i 0 : Fin 4) (i 1 : Fin 4096) k)) (i 2 : Fin 4096)

theorem mix_congr' (s : EReal) (pv pv' : Fin 16 → Fin 4096 → EReal) (f f' : Fin 4096 → EReal) (d d' : Fin 4096)
    (hp : ∀ n k, pv n k = pv' n k) (hf : ∀ k, f k = f' k) (hd : d = d') : mixRow s pv f d = mixRow s pv' f' d' := by
  rw [show pv = pv' from funext fun n => funext (hp n), show f = f' from funext hf, hd]

/-- The printed index maps over the 32 points: the `q` window moves with the result window, neither moves along the last
    axis, the `pv` window never moves, and the result window is at batch `t / 8`, row block `t % 8`. -/
theorem idx_facts : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_2.index t (2 : Fin 3) = 0
    ∧ win0_1.index t (0 : Fin 2) = 0
    ∧ win0_1.index t (1 : Fin 2) = 0
    ∧ win0_2.index t (0 : Fin 3) = t.val / 8
    ∧ win0_2.index t (1 : Fin 3) = t.val % 8 :=
  (by decide +kernel : ∀ t : Fin grid0.N, _)

/-- What point `t` writes back is block `t` of the array function of the arrays the region finds. -/
theorem flushed_eq (c : Dev nD) (t : Fin cfg0.N) :
    (dats m 0 c).flushed 2 t
      = ((cfg0.win 2).blk t).view.read (Elt Ideal) (arrFn (V m c main_arg0) (V m c main_v5)) := by
  rw [Cert.KernelIdeal.Value.flushed2_A, block_apply]
  obtain ⟨e0, e1, e2, e3, e4, e5, -, -⟩ := idx_facts t
  funext j
  show blockFn (iblk m c 0 t) (iblk m c 1 t) j
    = arrFn (V m c main_arg0) (V m c main_v5) (((cfg0.win 2).blk t).view.emb j)
  unfold blockFn arrFn
  refine mix_congr' _ _ _ _ _ _ _ (fun n k => ?_) (fun k => ?_) ?_
  · show V m c main_v5 (((cfg0.win 1).blk t).view.emb (ix2 n k)) = V m c main_v5 (ix2 n k)
    refine congrArg (V m c main_v5) (funext fun a => Fin.ext ?_)
    match a with
    | ⟨0, _⟩ => show win0_1.index t (0 : Fin 2) * 16 + 1 * n.val = n.val; omega
    | ⟨1, _⟩ => show win0_1.index t (1 : Fin 2) * 4096 + 1 * k.val = k.val; omega
  · show V m c main_arg0 (((cfg0.win 0).blk t).view.emb (ix3 (j 0 : Fin 1) (j 1 : Fin 512) k)) = _
    refine congrArg (V m c main_arg0) (funext fun a => Fin.ext ?_)
    match a with
    | ⟨0, _⟩ => show win0_0.index t (0 : Fin 3) * 1 + 1 * (j 0).val = win0_2.index t (0 : Fin 3) * 1 + 1 * (j 0).val; omega
    | ⟨1, _⟩ => show win0_0.index t (1 : Fin 3) * 512 + 1 * (j 1).val = win0_2.index t (1 : Fin 3) * 512 + 1 * (j 1).val; omega
    | ⟨2, _⟩ => show win0_0.index t (2 : Fin 3) * 4096 + 1 * k.val = k.val; omega
  · refine Fin.ext ?_
    show (j 2).val = win0_2.index t (2 : Fin 3) * 4096 + 1 * (j 2).val
    omega

/-- An index of the array is in point `t`'s block iff each coordinate is in the block's range on its axis. -/
theorem mem_blk (t : Fin cfg0.N) (i : S4x4096x4096.Idx) :
    i ∈ ((cfg0.win 2).blk t).view.set ↔ ∀ a : Fin 3, win0_2.index t a * S1x512x4096.size a ≤ (i a).val
      ∧ (i a).val < win0_2.index t a * S1x512x4096.size a + S1x512x4096.size a := by
  show i ∈ ((View.whole main_v6).slice (win0_2.rect t)).set ↔ _
  rw [View.set_slice_whole, Rect.mem_set_unit]
  exact Iff.rfl

/-- Every index `(b, r, d)` is in the block of point `8·b + r / 512`. -/
theorem cover (i : S4x4096x4096.Idx) :
    ∃ t : Fin cfg0.N, (cfg0.win 2).flush t = true ∧ i ∈ ((cfg0.win 2).blk t).view.set := by
  have hN : cfg0.N = 32 := N_0
  have h0 : (i 0).val < 4 := (i 0).isLt
  have h1 : (i 1).val < 4096 := (i 1).isLt
  have h2 : (i 2).val < 4096 := (i 2).isLt
  have hlt : (i 0).val * 8 + (i 1).val / 512 < cfg0.N := by rw [hN]; omega
  obtain ⟨-, -, -, e3, -, -, e6, e7⟩ := idx_facts ⟨(i 0).val * 8 + (i 1).val / 512, hlt⟩
  refine ⟨⟨(i 0).val * 8 + (i 1).val / 512, hlt⟩, flush0_2 _, ?_⟩
  rw [mem_blk]
  intro a
  match a with
  | ⟨0, _⟩ =>
    show win0_2.index ⟨(i 0).val * 8 + (i 1).val / 512, hlt⟩ (0 : Fin 3) * 1 ≤ (i 0).val
      ∧ (i 0).val < win0_2.index ⟨(i 0).val * 8 + (i 1).val / 512, hlt⟩ (0 : Fin 3) * 1 + 1
    rw [e6]; show ((i 0).val * 8 + (i 1).val / 512) / 8 * 1 ≤ _ ∧ _ < ((i 0).val * 8 + (i 1).val / 512) / 8 * 1 + 1; omega
  | ⟨1, _⟩ =>
    show win0_2.index ⟨(i 0).val * 8 + (i 1).val / 512, hlt⟩ (1 : Fin 3) * 512 ≤ (i 1).val
      ∧ (i 1).val < win0_2.index ⟨(i 0).val * 8 + (i 1).val / 512, hlt⟩ (1 : Fin 3) * 512 + 512
    rw [e7]; show ((i 0).val * 8 + (i 1).val / 512) % 8 * 512 ≤ _ ∧ _ < ((i 0).val * 8 + (i 1).val / 512) % 8 * 512 + 512; omega
  | ⟨2, _⟩ =>
    show win0_2.index ⟨(i 0).val * 8 + (i 1).val / 512, hlt⟩ (2 : Fin 3) * 4096 ≤ (i 2).val
      ∧ (i 2).val < win0_2.index ⟨(i 0).val * 8 + (i 1).val / 512, hlt⟩ (2 : Fin 3) * 4096 + 4096
    rw [e3]; omega

/-- THE ARRAY after the run: the array function of `q` and of the `pv` the host operations before the region left. -/
theorem final (c : Dev nD) :
    (dats m 0 c).arrAt 2 cfg0.N = arrFn (m ((c : Thread nD τ).loc main_arg0)) (V m c main_v5) := by
  have h := (dats m 0 c).arrAt_eq_of_cover 2 (arrFn (V m c main_arg0) (V m c main_v5)) (fun t _ => flushed_eq m c t) cover
  rw [h, V_main_arg0]

/-- The frame run re-posted: the result array at the array function, the arguments unchanged. -/
theorem run : θ_run defs (onTc (τ := τ) (main (F := Ideal))) ⟨m, fun _ => 0, ρ⟩ fun r => ∀ c : Dev nD,
      r.2.mem ((c : Thread nD τ).loc main_v6) = arrFn (m ((c : Thread nD τ).loc main_arg0)) (V m c main_v5)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Array

end
-- ==== Proof.PvSame.lean ====
import proofs.«162622_j17265768530810_2_alg».proof.Proof.Gen.KernelIdeal.Frame
import proofs.«162622_j17265768530810_2_alg».proof.Proof.Gen.ReferenceIdeal.Read
import Idealize.ShloMosaic.Lib.StableHlo.Run
import Idealize.ShloMosaic.Lib.Tactic

noncomputable section

/-!
  The sixteen normalised rows are the same array in both programs.

  Before the kernel's region starts, the host divides each row of `pos_emb` by the larger of its Euclidean norm and a
  small constant — the very operations, in the very order, by which the reference makes its `pos_vecs` — and then only
  changes the format, which at the ideal values changes nothing.  So the array the region finds is the reference's.
-/

open Idealize.ShloMosaic Idealize.ShloMosaic.TcCoe Idealize.SL.Sem

namespace Cert.KernelIdeal.PvSame

open Cert.KernelIdeal Cert.KernelIdeal.Gen

variable (m : (ℓ : Loc nD τ sig) → Buf (Elt Ideal) ℓ)

/-- The `pv` array the region finds is the reference's normalised `pos_emb` of the same argument. -/
theorem pv_same (c : Dev nD) :
    (V m c main_v5 : S16x4096.Idx → EReal)
      = Cert.ReferenceIdeal.Read.val_main_v4 (F := Ideal) (m ((c : Thread nD τ).loc main_arg2)) := by
  dsimp only [V]
  simp only [hostOps0, hostOps0_1, List.flatten_cons, List.flatten_nil, List.append_nil, List.cons_append,
    List.nil_append]
  after_results
  rfl

end Cert.KernelIdeal.PvSame

end
-- ==== Proof.RefRow.lean ====
import proofs.«162622_j17265768530810_2_alg».proof.Proof.Gen.ReferenceIdeal.Read
import proofs.«162622_j17265768530810_2_alg».proof.Proof.RowLaws
import Idealize.ShloMosaic.Lib.ValueIdx
import Idealize.ShloMosaic.PureOps.Ideal.Laws

noncomputable section

/-!
  The reference, read at an index.

  Its result at `(b, r, d)` depends on row `(b, r)` of `q` only: the logits are that row against the sixteen rows of the
  normalised `pos_emb`, scaled by `1 / √4096`; the softmax over the sixteen positions gives the gates; the gates combine
  the sixteen rows again.  That is `mixRow` of the row at column `d`, with the scale read as `1/64`.
-/

namespace Cert.ReferenceIdeal.Row

open Cert.ReferenceIdeal Cert.ReferenceIdeal.Gen Cert.ReferenceIdeal.Read Idealize.ShloMosaic Idealize.ShloMosaic.ValueIdx Cert.RowLaws

variable (x0 : (⟨S4x4096x4096, .f32⟩ : BufTy).Contents (Elt Ideal)) (x2 : (⟨S16x4096, .f32⟩ : BufTy).Contents (Elt Ideal))

/-- The sixteen normalised rows, as the reference computes them from `pos_emb` (never opened here). -/
abbrev pv (n : Fin 16) (k : Fin 4096) : EReal := val_main_v4 (F := Ideal) x2 (ix2 n k)

/-- Row `(b, r)` of `q`. -/
abbrev qrow (b : Fin 4) (r : Fin 4096) (k : Fin 4096) : EReal := x0 (ix3 b r k)

/-- The scale the reference spreads over the logits, `1 / √4096`, is the literal `1/64`. -/
theorem scale_apply (j : S4x4096x16.Idx) : val_main_v8 (F := Ideal) j = Ideal.ofBits .f32 0x3C800000#32 := by
  rw [val_main_v8_apply]
  exact scale_eq

/-- The scaled logits of row `(b, r)`. -/
theorem logit_apply (b : Fin 4) (r : Fin 4096) (n : Fin 16) :
    val_main_v9 (F := Ideal) x0 x2 (ix3 b r n) = logit (Ideal.ofBits .f32 0x3C800000#32) (pv x2) (qrow x0 b r) n := by
  rw [val_main_v9_apply, val_main_v7_apply, scale_apply]
  unfold logit
  refine congrArg (· * _) (Finset.sum_congr rfl fun k _ => ?_)
  have el : lidx_main_v7 (ix3 b r n) k = ix3 b r k := funext fun a => by
    match a with | ⟨0, _⟩ => rfl | ⟨1, _⟩ => rfl | ⟨2, _⟩ => rfl
  have er : ridx_main_v7 (ix3 b r n) k = ix2 n k := funext fun a => by
    match a with | ⟨0, _⟩ => rfl | ⟨1, _⟩ => rfl
  rw [el, er]

/-- Putting position `k` back into `(b, r)` gives `(b, r, k)`. -/
theorem lift_pos (h : S4x4096x16.Reduces [2] S4x4096) (b : Fin 4) (r : Fin 4096) (k : Fin (S4x4096x16.size 2)) :
    h.lift (ix2 b r) k = ix3 b r (⟨k.val, k.isLt⟩ : Fin 16) := by
  funext c; apply Fin.ext
  fin_cases c <;> rfl

/-- The maximum of the sixteen logits of row `(b, r)`, started from `-∞`. -/
theorem max_apply (b : Fin 4) (r : Fin 4096) :
    val_main_v10 (F := Ideal) x0 x2 (ix2 b r)
      = (Finset.univ : Finset (Fin 16)).fold max negInf (fun n => val_main_v9 (F := Ideal) x0 x2 (ix3 b r n)) := by
  unfold val_main_v10
  rw [Host.reduce_eq_fold_single FloatOps.maximumf _ _ reducesTo_S4x4096x16_S4x4096_d2 (by decide) h_S_]
  have hf : (val_main_v9 (F := Ideal) x0 x2 ∘ Shape.Reduces.lift (by decide : S4x4096x16.Reduces [2] S4x4096) (ix2 b r))
      = fun n : Fin 16 => val_main_v9 (F := Ideal) x0 x2 (ix3 b r n) :=
    funext fun k => congrArg (val_main_v9 (F := Ideal) x0 x2) (lift_pos _ b r k)
  exact congrArg (fun f => Finset.fold max negInf f (Finset.univ : Finset (Fin 16))) hf

/-- The maximum as it is spread back over the sixteen positions. -/
theorem rowMax_apply (b : Fin 4) (r : Fin 4096) (n : Fin 16) :
    val_main_v14 (F := Ideal) x0 x2 (ix3 b r n) = rowMax (fun k => val_main_v9 (F := Ideal) x0 x2 (ix3 b r k)) := by
  rw [val_main_v14_apply, val_main_v13_apply, val_main_v12_apply, val_main_v11_apply]
  have e : idx_main_v13 (idx_main_v14 (ix3 b r n)) = ix2 b r := funext fun a => by
    match a with | ⟨0, _⟩ => rfl | ⟨1, _⟩ => rfl
  rw [e, max_apply]
  rfl

/-- The weights of row `(b, r)`. -/
theorem weight_apply (b : Fin 4) (r : Fin 4096) (n : Fin 16) :
    val_main_v16 (F := Ideal) x0 x2 (ix3 b r n) = weight (fun k => val_main_v9 (F := Ideal) x0 x2 (ix3 b r k)) n := by
  rw [val_main_v16_apply, val_main_v15_apply, rowMax_apply]
  rfl

/-- The gates of row `(b, r)`: the sum starts from `0`, so it is the plain sum of the weights. -/
theorem gate_apply (b : Fin 4) (r : Fin 4096) (n : Fin 16) :
    val_main_v20 (F := Ideal) x0 x2 (ix3 b r n) = gate (fun k => val_main_v9 (F := Ideal) x0 x2 (ix3 b r k)) n := by
  rw [val_main_v20_apply, val_main_v19_apply, val_main_v18_apply, val_main_v17_apply, weight_apply]
  have e : idx_main_v18 (idx_main_v19 (ix3 b r n)) = ix2 b r := funext fun a => by
    match a with | ⟨0, _⟩ => rfl | ⟨1, _⟩ => rfl
  have ek : ∀ k : Fin 16, idx_main_v17 (ix2 b r) k = ix3 b r k := fun k => funext fun a => by
    match a with | ⟨0, _⟩ => rfl | ⟨1, _⟩ => rfl | ⟨2, _⟩ => rfl
  rw [e]
  show Ideal.div _ (Ideal.ofBits .f32 0x00000000#32 + _) = _
  rw [Ideal.ofBits_zero_f32, zero_add]
  unfold gate
  exact congrArg (Ideal.div _) (Finset.sum_congr rfl fun k _ => by rw [ek k, weight_apply])

/-- The reference's result at `(b, r, d)`. -/
theorem result_apply (b : Fin 4) (r : Fin 4096) (d : Fin 4096) :
    val_main_v21 (F := Ideal) x0 x2 (ix3 b r d)
      = mixRow (Ideal.ofBits .f32 0x3C800000#32) (pv x2) (qrow x0 b r) d := by
  rw [val_main_v21_apply]
  unfold mixRow
  refine Finset.sum_congr rfl fun n _ => ?_
  have el : lidx_main_v21 (ix3 b r d) n = ix3 b r n := funext fun a => by
    match a with | ⟨0, _⟩ => rfl | ⟨1, _⟩ => rfl | ⟨2, _⟩ => rfl
  have er : ridx_main_v21 (ix3 b r d) n = ix2 n d := funext fun a => by
    match a with | ⟨0, _⟩ => rfl | ⟨1, _⟩ => rfl
  rw [el, er, gate_apply]
  have hl : (fun k => val_main_v9 (F := Ideal) x0 x2 (ix3 b r k))
      = logit (Ideal.ofBits .f32 0x3C800000#32) (pv x2) (qrow x0 b r) := funext fun k => logit_apply x0 x2 b r k
  rw [hl]

end Cert.ReferenceIdeal.Row

end
-- ==== Proof.lean ====
/-
  The kernel against its reference, over the extended reals.

  Both programs first normalise the sixteen rows of `pos_emb` (each row over the larger of its norm and a small constant);
  call the result `pv`.  For every row `x` of `q` the result row is then the same function: the logits
  `l n = (∑ k, x k · pv n k) · s`, the softmax of the sixteen logits, and the gates' combination `∑ n, gate n · pv n d`.
  The kernel does this block by block — 32 grid points of 512 rows, each in four chunks of 128 rows, with two matrix
  products — and spells the scale as the literal `1/64`; the reference does it in one piece and spells the scale
  `1 / √4096`.  Since `4096 = 64²` the scales are one extended real; a product into a zero accumulator and a sum started
  from zero are plain sums; a change of float format is the identity: so the two result arrays are equal index by index.
  No law used needs the inputs to be finite.

  The kernel's frame and its run block by block, and the reference's run and its reading operation by operation, are
  the generated modules; written here are the row function and the scale (RowLaws), each side read as that function
  (KernelRow, KernelBlock, KernelArray, PvSame for the kernel; RefRow for the reference), and the claims' assembly.
-/
import proofs.«162622_j17265768530810_2_alg».proof.Defs
import proofs.«162622_j17265768530810_2_alg».proof.Proof.Gen.Kernel
import proofs.«162622_j17265768530810_2_alg».proof.Proof.Gen.Kernel.Skeleton
import proofs.«162622_j17265768530810_2_alg».proof.Proof.Gen.Kernel.Loops
import proofs.«162622_j17265768530810_2_alg».proof.Proof.Gen.Kernel.Launch
import proofs.«162622_j17265768530810_2_alg».proof.Proof.Gen.Kernel.Points
import proofs.«162622_j17265768530810_2_alg».proof.Proof.Gen.Kernel.Frame
import proofs.«162622_j17265768530810_2_alg».proof.Proof.Gen.KernelIdeal
import proofs.«162622_j17265768530810_2_alg».proof.Proof.Gen.KernelIdeal.Skeleton
import proofs.«162622_j17265768530810_2_alg».proof.Proof.Gen.KernelIdeal.Loops
import proofs.«162622_j17265768530810_2_alg».proof.Proof.Gen.KernelIdeal.Launch
import proofs.«162622_j17265768530810_2_alg».proof.Proof.Gen.KernelIdeal.Points
import proofs.«162622_j17265768530810_2_alg».proof.Proof.Gen.KernelIdeal.Frame
import proofs.«162622_j17265768530810_2_alg».proof.Proof.Gen.ReferenceIdeal
import proofs.«162622_j17265768530810_2_alg».proof.Proof.Gen.Pre_finite_inputs
import proofs.«162622_j17265768530810_2_alg».proof.Proof.Gen.KernelIdeal.Value
import proofs.«162622_j17265768530810_2_alg».proof.Proof.Gen.ReferenceIdeal.Run
import proofs.«162622_j17265768530810_2_alg».proof.Proof.Gen.ReferenceIdeal.Read
import proofs.«162622_j17265768530810_2_alg».proof.Proof.KernelArray
import proofs.«162622_j17265768530810_2_alg».proof.Proof.PvSame
import proofs.«162622_j17265768530810_2_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_k [Cert.Kernel.Facts] [Cert.Pre_finite_inputs.Facts] : Cert.frame_Kernel :=
  fun m ρ _ => Cert.Kernel.Gen.frame m ρ

/-- So does the kernel read at the ideal values. -/
theorem frame_ki [Cert.KernelIdeal.Facts] [Cert.Pre_finite_inputs.Facts] : Cert.frame_KernelIdeal :=
  fun m ρ _ => Cert.KernelIdeal.Gen.frame m ρ

/-- The reference runs and leaves its arguments as they were: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The kernel's result array (the array function of `q` and `pv`, block by block) and the reference's (the same function,
    read operation by operation) of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Array.arrFn (m ((c.tc : Thread Cert.KernelIdeal.nD Cert.KernelIdeal.τ).loc Cert.KernelIdeal.main_arg0))
      (Cert.KernelIdeal.Gen.V m c Cert.KernelIdeal.main_v5), Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.2]
  show _ = Cert.KernelIdeal.Array.arrFn _ (Cert.KernelIdeal.Gen.V m c Cert.KernelIdeal.main_v5)
  rw [Cert.KernelIdeal.PvSame.pv_same]
  funext i
  obtain ⟨b, r, d, rfl⟩ : ∃ (b : Fin 4) (r : Fin 4096) (d : Fin 4096), i = ix3 b r d := ⟨i 0, i 1, i 2, eq_ix3 i⟩
  exact Cert.ReferenceIdeal.Row.result_apply _ _ b r d

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
